-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x5 : Shape := ⟨2, ![100000, 5]⟩
abbrev S200000x19 : Shape := ⟨2, ![200000, 19]⟩
abbrev S2x8000000 : Shape := ⟨2, ![2, 8000000]⟩
abbrev S8000000 : Shape := ⟨1, ![8000000]⟩
abbrev S20000 : Shape := ⟨1, ![20000]⟩
abbrev S_ : Shape := ⟨0, ![]⟩

class Facts : Prop where
  bcast_S_S100000x5 : S_.BroadcastsInDim S100000x5 (![] : Fin 0 → Fin S100000x5.rank)
  reducesTo_S100000x5_S_d0_1 : S100000x5.ReducesTo [0, 1] S_
  h_S_ : 0 < S_.numel
  bcast_S_S200000x19 : S_.BroadcastsInDim S200000x19 (![] : Fin 0 → Fin S200000x19.rank)
  reducesTo_S200000x19_S_d0_1 : S200000x19.ReducesTo [0, 1] S_
  bcast_S_S8000000 : S_.BroadcastsInDim S8000000 (![] : Fin 0 → Fin S8000000.rank)
  reducesTo_S8000000_S_d0 : S8000000.ReducesTo [0] S_

variable [Facts]

def fn {F : FTy → Type} [FloatOps F] (main_arg0 : FVec F S100000x5 .f32) (main_arg1 : FVec F S200000x19 .f32) (main_arg2 : IVec S2x8000000 32) (main_arg3 : FVec F S8000000 .f32) (main_arg4 : IVec S20000 32) : IVec S_ 1 :=
  let main_v0 : FVec F S100000x5 .f32 := Host.absf main_arg0
  let main_cst : FVec F S_ .f32 := constant S_ .f32 0x7F800000#32
  let main_v1 : FVec F S100000x5 .f32 := broadcastInDim S100000x5 ![] bcast_S_S100000x5 main_cst
  let main_v2 : IVec S100000x5 1 := cmpf .olt main_v0 main_v1
  let main_c : IVec S_ 1 := constantI S_ 1 1#1
  let main_v3 : IVec S_ 1 := (fun x v => Host.reduce IntOp.andi x v reducesTo_S100000x5_S_d0_1 h_S_) main_v2 main_c
  let main_v4 : FVec F S200000x19 .f32 := Host.absf main_arg1
  let main_cst_0 : FVec F S_ .f32 := constant S_ .f32 0x7F800000#32
  let main_v5 : FVec F S200000x19 .f32 := broadcastInDim S200000x19 ![] bcast_S_S200000x19 main_cst_0
  let main_v6 : IVec S200000x19 1 := cmpf .olt main_v4 main_v5
  let main_c_1 : IVec S_ 1 := constantI S_ 1 1#1
  let main_v7 : IVec S_ 1 := (fun x v => Host.reduce IntOp.andi x v reducesTo_S200000x19_S_d0_1 h_S_) main_v6 main_c_1
  let main_v8 : IVec S_ 1 := andi main_v3 main_v7
  let main_v9 : FVec F S8000000 .f32 := Host.absf main_arg3
  let main_cst_2 : FVec F S_ .f32 := constant S_ .f32 0x7F800000#32
  let main_v10 : FVec F S8000000 .f32 := broadcastInDim S8000000 ![] bcast_S_S8000000 main_cst_2
  let main_v11 : IVec S8000000 1 := cmpf .olt main_v9 main_v10
  let main_c_3 : IVec S_ 1 := constantI S_ 1 1#1
  let main_v12 : IVec S_ 1 := (fun x v => Host.reduce IntOp.andi x v reducesTo_S8000000_S_d0 h_S_) main_v11 main_c_3
  let main_v13 : IVec S_ 1 := andi main_v8 main_v12
  main_v13
-- ==== Kernel.lean ====
abbrev S100000x5 : Shape := ⟨2, ![100000, 5]⟩
abbrev S200000x19 : Shape := ⟨2, ![200000, 19]⟩
abbrev S2x8000000 : Shape := ⟨2, ![2, 8000000]⟩
abbrev S8000000 : Shape := ⟨1, ![8000000]⟩
abbrev S20000 : Shape := ⟨1, ![20000]⟩
abbrev S1x8000000 : Shape := ⟨2, ![1, 8000000]⟩
abbrev S200000x1 : Shape := ⟨2, ![200000, 1]⟩
abbrev S200000 : Shape := ⟨1, ![200000]⟩
abbrev S100000x1 : Shape := ⟨2, ![100000, 1]⟩
abbrev S100000 : Shape := ⟨1, ![100000]⟩
abbrev S_ : Shape := ⟨0, ![]⟩
abbrev S8000000x1 : Shape := ⟨2, ![8000000, 1]⟩
abbrev S62500x128 : Shape := ⟨2, ![62500, 128]⟩
abbrev S8192x128 : Shape := ⟨2, ![8192, 128]⟩
abbrev S20000x1 : Shape := ⟨2, ![20000, 1]⟩

abbrev nBuf : Space → Nat
  | .hbm => 57
  | .vmem => 8
  | .smem => 0
  | _ => 0

abbrev bufTy : (tb : Table) → Fin (tcTables nBuf tb) → BufTy
  | .hbm, ⟨0, _⟩ => ⟨S100000x5, .f32⟩
  | .hbm, ⟨1, _⟩ => ⟨S200000x19, .f32⟩
  | .hbm, ⟨2, _⟩ => ⟨S2x8000000, .i32⟩
  | .hbm, ⟨3, _⟩ => ⟨S8000000, .f32⟩
  | .hbm, ⟨4, _⟩ => ⟨S20000, .i32⟩
  | .hbm, ⟨5, _⟩ => ⟨S1x8000000, .i32⟩
  | .hbm, ⟨6, _⟩ => ⟨S8000000, .i32⟩
  | .hbm, ⟨7, _⟩ => ⟨S1x8000000, .i32⟩
  | .hbm, ⟨8, _⟩ => ⟨S8000000, .i32⟩
  | .hbm, ⟨9, _⟩ => ⟨S200000x1, .f32⟩
  | .hbm, ⟨10, _⟩ => ⟨S200000, .f32⟩
  | .hbm, ⟨11, _⟩ => ⟨S100000x1, .f32⟩
  | .hbm, ⟨12, _⟩ => ⟨S100000, .f32⟩
  | .hbm, ⟨13, _⟩ => ⟨S_, .i32⟩
  | .hbm, ⟨14, _⟩ => ⟨S8000000, .i32⟩
  | .hbm, ⟨15, _⟩ => ⟨S8000000, .i1⟩
  | .hbm, ⟨16, _⟩ => ⟨S_, .i32⟩
  | .hbm, ⟨17, _⟩ => ⟨S8000000, .i32⟩
  | .hbm, ⟨18, _⟩ => ⟨S8000000, .i32⟩
  | .hbm, ⟨19, _⟩ => ⟨S8000000, .i32⟩
  | .hbm, ⟨20, _⟩ => ⟨S8000000x1, .i32⟩
  | .hbm, ⟨21, _⟩ => ⟨S8000000, .f32⟩
  | .hbm, ⟨22, _⟩ => ⟨S_, .i32⟩
  | .hbm, ⟨23, _⟩ => ⟨S8000000, .i32⟩
  | .hbm, ⟨24, _⟩ => ⟨S8000000, .i1⟩
  | .hbm, ⟨25, _⟩ => ⟨S_, .i32⟩
  | .hbm, ⟨26, _⟩ => ⟨S8000000, .i32⟩
  | .hbm, ⟨27, _⟩ => ⟨S8000000, .i32⟩
  | .hbm, ⟨28, _⟩ => ⟨S8000000, .i32⟩
  | .hbm, ⟨29, _⟩ => ⟨S8000000x1, .i32⟩
  | .hbm, ⟨30, _⟩ => ⟨S8000000, .f32⟩
  | .hbm, ⟨31, _⟩ => ⟨S62500x128, .f32⟩
  | .hbm, ⟨32, _⟩ => ⟨S62500x128, .f32⟩
  | .hbm, ⟨33, _⟩ => ⟨S62500x128, .f32⟩
  | .hbm, ⟨34, _⟩ => ⟨S62500x128, .f32⟩
  | .hbm, ⟨35, _⟩ => ⟨S8000000, .f32⟩
  | .hbm, ⟨36, _⟩ => ⟨S_, .f32⟩
  | .hbm, ⟨37, _⟩ => ⟨S200000, .f32⟩
  | .hbm, ⟨38, _⟩ => ⟨S8000000x1, .i32⟩
  | .hbm, ⟨39, _⟩ => ⟨S200000, .f32⟩
  | .hbm, ⟨40, _⟩ => ⟨S200000x1, .f32⟩
  | .hbm, ⟨41, _⟩ => ⟨S200000, .f32⟩
  | .hbm, ⟨42, _⟩ => ⟨S200000, .f32⟩
  | .hbm, ⟨43, _⟩ => ⟨S200000x1, .f32⟩
  | .hbm, ⟨44, _⟩ => ⟨S200000, .f32⟩
  | .hbm, ⟨45, _⟩ => ⟨S200000, .f32⟩
  | .hbm, ⟨46, _⟩ => ⟨S200000, .f32⟩
  | .hbm, ⟨47, _⟩ => ⟨S200000, .f32⟩
  | .hbm, ⟨48, _⟩ => ⟨S_, .i32⟩
  | .hbm, ⟨49, _⟩ => ⟨S20000, .i32⟩
  | .hbm, ⟨50, _⟩ => ⟨S20000, .i1⟩
  | .hbm, ⟨51, _⟩ => ⟨S_, .i32⟩
  | .hbm, ⟨52, _⟩ => ⟨S20000, .i32⟩
  | .hbm, ⟨53, _⟩ => ⟨S20000, .i32⟩
  | .hbm, ⟨54, _⟩ => ⟨S20000, .i32⟩
  | .hbm, ⟨55, _⟩ => ⟨S20000x1, .i32⟩
  | .hbm, ⟨56, _⟩ => ⟨S20000, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S8192x128, .f32⟩
  | .local _ .vmem, ⟨5, _⟩ => ⟨S8192x128, .f32⟩
  | .local _ .vmem, ⟨6, _⟩ => ⟨S8192x128, .f32⟩
  | .local _ .vmem, ⟨7, _⟩ => ⟨S8192x128, .f32⟩
  | _, _ => ⟨S100000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_1 : Ref sig .tc := ⟨.hbm, 22, rfl⟩
abbrev main_v15 : Ref sig .tc := ⟨.hbm, 23, rfl⟩
abbrev main_v16 : Ref sig .tc := ⟨.hbm, 24, rfl⟩
abbrev main_c_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_c_3 : Ref sig .tc := ⟨.hbm, 48, rfl⟩
abbrev main_v38 : Ref sig .tc := ⟨.hbm, 49, rfl⟩
abbrev main_v39 : Ref sig .tc := ⟨.hbm, 50, rfl⟩
abbrev main_c_4 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x8000000_S1x8000000_0_0 : S2x8000000.Slices ![0, 0] S1x8000000
  shapeCasts_S1x8000000_S8000000 : S1x8000000.ShapeCasts S8000000
  slices_S2x8000000_S1x8000000_1_0 : S2x8000000.Slices ![1, 0] S1x8000000
  slices_S200000x19_S200000x1_0_5 : S200000x19.Slices ![0, 5] S200000x1
  shapeCasts_S200000x1_S200000 : S200000x1.ShapeCasts S200000
  slices_S100000x5_S100000x1_0_2 : S100000x5.Slices ![0, 2] S100000x1
  shapeCasts_S100000x1_S100000 : S100000x1.ShapeCasts S100000
  bcast_S_S8000000 : S_.BroadcastsInDim S8000000 (![] : Fin 0 → Fin S8000000.rank)
  bcast_S8000000_S8000000x1_0 : S8000000.BroadcastsInDim S8000000x1 (![0] : Fin 1 → Fin S8000000x1.rank)
  shapeCasts_S8000000_S62500x128 : S8000000.ShapeCasts S62500x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  shapeCasts_S62500x128_S8000000 : S62500x128.ShapeCasts S8000000
  bcast_S_S200000 : S_.BroadcastsInDim S200000 (![] : Fin 0 → Fin S200000.rank)
  slices_S200000x19_S200000x1_0_0 : S200000x19.Slices ![0, 0] S200000x1
  slices_S200000x19_S200000x1_0_3 : S200000x19.Slices ![0, 3] S200000x1
  bcast_S_S20000 : S_.BroadcastsInDim S20000 (![] : Fin 0 → Fin S20000.rank)
  bcast_S20000_S20000x1_0 : S20000.BroadcastsInDim S20000x1 (![0] : Fin 1 → Fin S20000x1.rank)
  gather_S200000_S8000000x1_S8000000_n_0_n_n_0_1_1_wf : GatherDims.WF S200000 S8000000x1 S8000000 [] [0] [] [0] [] 1 ![1]
  gather_S100000_S8000000x1_S8000000_n_0_n_n_0_1_1_wf : GatherDims.WF S100000 S8000000x1 S8000000 [] [0] [] [0] [] 1 ![1]
  scatter_S200000_S8000000x1_S8000000_n_0_0_1_wf : ScatterDims.WF S200000 S8000000x1 S8000000 [] [0] [0] 1
  gather_S200000_S20000x1_S20000_n_0_n_n_0_1_1_wf : GatherDims.WF S200000 S20000x1 S20000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S8192x128.size a < S62500x128.size a
  hwx0_0 : ∀ i : grid0.Coords, EltTy.bits .f32 = 32 ∨ (Rect.unit (s := S62500x128) (fun a => cc0_transform_0 i a * S8192x128.size a) (fun a => (Pipeline.Clip.of (cc0_transform_0 i a) (S8192x128.size a) (S62500x128.size a)).extent (S8192x128.size a)) fun a => Pipeline.Clip.inb (Pipeline.Clip.ok_of (hstart0_0 i a))).WholeWords (EltTy.packing .f32)
  hwxs0_0 : ∀ i : grid0.Coords, EltTy.bits .f32 = 32 ∨ (Rect.unit (s := S8192x128) (fun _ => 0) (fun a => (Pipeline.Clip.of (cc0_transform_0 i a) (S8192x128.size a) (S62500x128.size a)).extent (S8192x128.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S8192x128.size a < S62500x128.size a
  hwx0_1 : ∀ i : grid0.Coords, EltTy.bits .f32 = 32 ∨ (Rect.unit (s := S62500x128) (fun a => cc0_transform_1 i a * S8192x128.size a) (fun a => (Pipeline.Clip.of (cc0_transform_1 i a) (S8192x128.size a) (S62500x128.size a)).extent (S8192x128.size a)) fun a => Pipeline.Clip.inb (Pipeline.Clip.ok_of (hstart0_1 i a))).WholeWords (EltTy.packing .f32)
  hwxs0_1 : ∀ i : grid0.Coords, EltTy.bits .f32 = 32 ∨ (Rect.unit (s := S8192x128) (fun _ => 0) (fun a => (Pipeline.Clip.of (cc0_transform_1 i a) (S8192x128.size a) (S62500x128.size a)).extent (S8192x128.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S8192x128.size a < S62500x128.size a
  hwx0_2 : ∀ i : grid0.Coords, EltTy.bits .f32 = 32 ∨ (Rect.unit (s := S62500x128) (fun a => cc0_transform_2 i a * S8192x128.size a) (fun a => (Pipeline.Clip.of (cc0_transform_2 i a) (S8192x128.size a) (S62500x128.size a)).extent (S8192x128.size a)) fun a => Pipeline.Clip.inb (Pipeline.Clip.ok_of (hstart0_2 i a))).WholeWords (EltTy.packing .f32)
  hwxs0_2 : ∀ i : grid0.Coords, EltTy.bits .f32 = 32 ∨ (Rect.unit (s := S8192x128) (fun _ => 0) (fun a => (Pipeline.Clip.of (cc0_transform_2 i a) (S8192x128.size a) (S62500x128.size a)).extent (S8192x128.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S8192x128.size a < S62500x128.size a
  hwx0_3 : ∀ i : grid0.Coords, EltTy.bits .f32 = 32 ∨ (Rect.unit (s := S62500x128) (fun a => cc0_transform_3 i a * S8192x128.size a) (fun a => (Pipeline.Clip.of (cc0_transform_3 i a) (S8192x128.size a) (S62500x128.size a)).extent (S8192x128.size a)) fun a => Pipeline.Clip.inb (Pipeline.Clip.ok_of (hstart0_3 i a))).WholeWords (EltTy.packing .f32)
  hwxs0_3 : ∀ i : grid0.Coords, EltTy.bits .f32 = 32 ∨ (Rect.unit (s := S8192x128) (fun _ => 0) (fun a => (Pipeline.Clip.of (cc0_transform_3 i a) (S8192x128.size a) (S62500x128.size a)).extent (S8192x128.size a)) fun a => (Nat.zero_add _).trans_le (Pipeline.Clip.extent_le (Pipeline.Clip.ok_of (hstart0_3 i a)))).WholeWords (EltTy.packing .f32)

variable [Facts₀]

def gather_S200000_S8000000x1_S8000000_n_0_n_n_0_1_1 : GatherDims S200000 S8000000x1 S8000000 where
  offsetDims := []
  collapsedSliceDims := [0]
  operandBatchingDims := []
  startIndicesBatchingDims := []
  startIndexMap := [0]
  indexVectorDim := 1
  sliceSizes := ![1]
  wf := gather_S200000_S8000000x1_S8000000_n_0_n_n_0_1_1_wf
def gather_S100000_S8000000x1_S8000000_n_0_n_n_0_1_1 : GatherDims S100000 S8000000x1 S8000000 where
  offsetDims := []
  collapsedSliceDims := [0]
  operandBatchingDims := []
  startIndicesBatchingDims := []
  startIndexMap := [0]
  indexVectorDim := 1
  sliceSizes := ![1]
  wf := gather_S100000_S8000000x1_S8000000_n_0_n_n_0_1_1_wf
def scatter_S200000_S8000000x1_S8000000_n_0_0_1 : ScatterDims S200000 S8000000x1 S8000000 where
  updateWindowDims := []
  insertedWindowDims := [0]
  scatterDimsToOperandDims := [0]
  indexVectorDim := 1
  wf := scatter_S200000_S8000000x1_S8000000_n_0_0_1_wf
def gather_S200000_S20000x1_S20000_n_0_n_n_0_1_1 : GatherDims S200000 S20000x1 S20000 where
  offsetDims := []
  collapsedSliceDims := [0]
  operandBatchingDims := []
  startIndicesBatchingDims := []
  startIndexMap := [0]
  indexVectorDim := 1
  sliceSizes := ![1]
  wf := gather_S200000_S20000x1_S20000_n_0_n_n_0_1_1_wf

abbrev win0_0 : Pipeline.Window sig grid0 :=
  Pipeline.Window.ofSpecClip (Memref.whole main_v22) S8192x128.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v23) S8192x128.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v24) S8192x128.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v25) S8192x128.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x5 : Shape := ⟨2, ![100000, 5]⟩
abbrev S200000x19 : Shape := ⟨2, ![200000, 19]⟩
abbrev S2x8000000 : Shape := ⟨2, ![2, 8000000]⟩
abbrev S8000000 : Shape := ⟨1, ![8000000]⟩
abbrev S20000 : Shape := ⟨1, ![20000]⟩
abbrev S1x8000000 : Shape := ⟨2, ![1, 8000000]⟩
abbrev S200000x1 : Shape := ⟨2, ![200000, 1]⟩
abbrev S200000 : Shape := ⟨1, ![200000]⟩
abbrev S_ : Shape := ⟨0, ![]⟩
abbrev S8000000x1 : Shape := ⟨2, ![8000000, 1]⟩
abbrev S100000x1 : Shape := ⟨2, ![100000, 1]⟩
abbrev S100000 : Shape := ⟨1, ![100000]⟩
abbrev S20000x1 : Shape := ⟨2, ![20000, 1]⟩

abbrev nBuf : Space → Nat
  | .hbm => 54
  | .vmem => 0
  | .smem => 0
  | _ => 0

abbrev bufTy : (tb : Table) → Fin (tcTables nBuf tb) → BufTy
  | .hbm, ⟨0, _⟩ => ⟨S100000x5, .f32⟩
  | .hbm, ⟨1, _⟩ => ⟨S200000x19, .f32⟩
  | .hbm, ⟨2, _⟩ => ⟨S2x8000000, .i32⟩
  | .hbm, ⟨3, _⟩ => ⟨S8000000, .f32⟩
  | .hbm, ⟨4, _⟩ => ⟨S20000, .i32⟩
  | .hbm, ⟨5, _⟩ => ⟨S1x8000000, .i32⟩
  | .hbm, ⟨6, _⟩ => ⟨S8000000, .i32⟩
  | .hbm, ⟨7, _⟩ => ⟨S1x8000000, .i32⟩
  | .hbm, ⟨8, _⟩ => ⟨S8000000, .i32⟩
  | .hbm, ⟨9, _⟩ => ⟨S200000x1, .f32⟩
  | .hbm, ⟨10, _⟩ => ⟨S200000, .f32⟩
  | .hbm, ⟨11, _⟩ => ⟨S_, .i32⟩
  | .hbm, ⟨12, _⟩ => ⟨S8000000, .i32⟩
  | .hbm, ⟨13, _⟩ => ⟨S8000000, .i1⟩
  | .hbm, ⟨14, _⟩ => ⟨S_, .i32⟩
  | .hbm, ⟨15, _⟩ => ⟨S8000000, .i32⟩
  | .hbm, ⟨16, _⟩ => ⟨S8000000, .i32⟩
  | .hbm, ⟨17, _⟩ => ⟨S8000000, .i32⟩
  | .hbm, ⟨18, _⟩ => ⟨S8000000x1, .i32⟩
  | .hbm, ⟨19, _⟩ => ⟨S8000000, .f32⟩
  | .hbm, ⟨20, _⟩ => ⟨S100000x1, .f32⟩
  | .hbm, ⟨21, _⟩ => ⟨S100000, .f32⟩
  | .hbm, ⟨22, _⟩ => ⟨S_, .i32⟩
  | .hbm, ⟨23, _⟩ => ⟨S8000000, .i32⟩
  | .hbm, ⟨24, _⟩ => ⟨S8000000, .i1⟩
  | .hbm, ⟨25, _⟩ => ⟨S_, .i32⟩
  | .hbm, ⟨26, _⟩ => ⟨S8000000, .i32⟩
  | .hbm, ⟨27, _⟩ => ⟨S8000000, .i32⟩
  | .hbm, ⟨28, _⟩ => ⟨S8000000, .i32⟩
  | .hbm, ⟨29, _⟩ => ⟨S8000000x1, .i32⟩
  | .hbm, ⟨30, _⟩ => ⟨S8000000, .f32⟩
  | .hbm, ⟨31, _⟩ => ⟨S8000000, .f32⟩
  | .hbm, ⟨32, _⟩ => ⟨S8000000, .f32⟩
  | .hbm, ⟨33, _⟩ => ⟨S_, .f32⟩
  | .hbm, ⟨34, _⟩ => ⟨S200000, .f32⟩
  | .hbm, ⟨35, _⟩ => ⟨S8000000x1, .i32⟩
  | .hbm, ⟨36, _⟩ => ⟨S200000, .f32⟩
  | .hbm, ⟨37, _⟩ => ⟨S200000x1, .f32⟩
  | .hbm, ⟨38, _⟩ => ⟨S200000, .f32⟩
  | .hbm, ⟨39, _⟩ => ⟨S200000, .f32⟩
  | .hbm, ⟨40, _⟩ => ⟨S200000x1, .f32⟩
  | .hbm, ⟨41, _⟩ => ⟨S200000, .f32⟩
  | .hbm, ⟨42, _⟩ => ⟨S200000, .f32⟩
  | .hbm, ⟨43, _⟩ => ⟨S200000, .f32⟩
  | .hbm, ⟨44, _⟩ => ⟨S200000, .f32⟩
  | .hbm, ⟨45, _⟩ => ⟨S_, .i32⟩
  | .hbm, ⟨46, _⟩ => ⟨S20000, .i32⟩
  | .hbm, ⟨47, _⟩ => ⟨S20000, .i1⟩
  | .hbm, ⟨48, _⟩ => ⟨S_, .i32⟩
  | .hbm, ⟨49, _⟩ => ⟨S20000, .i32⟩
  | .hbm, ⟨50, _⟩ => ⟨S20000, .i32⟩
  | .hbm, ⟨51, _⟩ => ⟨S20000, .i32⟩
  | .hbm, ⟨52, _⟩ => ⟨S20000x1, .i32⟩
  | .hbm, ⟨53, _⟩ => ⟨S20000, .f32⟩
  | _, _ => ⟨S100000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_1 : Ref sig .tc := ⟨.hbm, 22, rfl⟩
abbrev main_v15 : Ref sig .tc := ⟨.hbm, 23, rfl⟩
abbrev main_v16 : Ref sig .tc := ⟨.hbm, 24, rfl⟩
abbrev main_c_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_c_3 : Ref sig .tc := ⟨.hbm, 45, rfl⟩
abbrev main_v35 : Ref sig .tc := ⟨.hbm, 46, rfl⟩
abbrev main_v36 : Ref sig .tc := ⟨.hbm, 47, rfl⟩
abbrev main_c_4 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩

abbrev nD : Nat := 1
abbrev τ : Topo := Topo.v7x

variable {F : FTy → Type} [FloatOps F]

class Facts₀ : Prop where
  slices_S2x8000000_S1x8000000_0_0 : S2x8000000.Slices ![0, 0] S1x8000000
  shapeCasts_S1x8000000_S8000000 : S1x8000000.ShapeCasts S8000000
  slices_S2x8000000_S1x8000000_1_0 : S2x8000000.Slices ![1, 0] S1x8000000
  slices_S200000x19_S200000x1_0_5 : S200000x19.Slices ![0, 5] S200000x1
  shapeCasts_S200000x1_S200000 : S200000x1.ShapeCasts S200000
  bcast_S_S8000000 : S_.BroadcastsInDim S8000000 (![] : Fin 0 → Fin S8000000.rank)
  bcast_S8000000_S8000000x1_0 : S8000000.BroadcastsInDim S8000000x1 (![0] : Fin 1 → Fin S8000000x1.rank)
  slices_S100000x5_S100000x1_0_2 : S100000x5.Slices ![0, 2] S100000x1
  shapeCasts_S100000x1_S100000 : S100000x1.ShapeCasts S100000
  bcast_S_S200000 : S_.BroadcastsInDim S200000 (![] : Fin 0 → Fin S200000.rank)
  slices_S200000x19_S200000x1_0_0 : S200000x19.Slices ![0, 0] S200000x1
  slices_S200000x19_S200000x1_0_3 : S200000x19.Slices ![0, 3] S200000x1
  bcast_S_S20000 : S_.BroadcastsInDim S20000 (![] : Fin 0 → Fin S20000.rank)
  bcast_S20000_S20000x1_0 : S20000.BroadcastsInDim S20000x1 (![0] : Fin 1 → Fin S20000x1.rank)
  gather_S200000_S8000000x1_S8000000_n_0_n_n_0_1_1_wf : GatherDims.WF S200000 S8000000x1 S8000000 [] [0] [] [0] [] 1 ![1]
  gather_S100000_S8000000x1_S8000000_n_0_n_n_0_1_1_wf : GatherDims.WF S100000 S8000000x1 S8000000 [] [0] [] [0] [] 1 ![1]
  scatter_S200000_S8000000x1_S8000000_n_0_0_1_wf : ScatterDims.WF S200000 S8000000x1 S8000000 [] [0] [0] 1
  gather_S200000_S20000x1_S20000_n_0_n_n_0_1_1_wf : GatherDims.WF S200000 S20000x1 S20000 [] [0] [] [0] [] 1 ![1]

variable [Facts₀]

def gather_S200000_S8000000x1_S8000000_n_0_n_n_0_1_1 : GatherDims S200000 S8000000x1 S8000000 where
  offsetDims := []
  collapsedSliceDims := [0]
  operandBatchingDims := []
  startIndicesBatchingDims := []
  startIndexMap := [0]
  indexVectorDim := 1
  sliceSizes := ![1]
  wf := gather_S200000_S8000000x1_S8000000_n_0_n_n_0_1_1_wf
def gather_S100000_S8000000x1_S8000000_n_0_n_n_0_1_1 : GatherDims S100000 S8000000x1 S8000000 where
  offsetDims := []
  collapsedSliceDims := [0]
  operandBatchingDims := []
  startIndicesBatchingDims := []
  startIndexMap := [0]
  indexVectorDim := 1
  sliceSizes := ![1]
  wf := gather_S100000_S8000000x1_S8000000_n_0_n_n_0_1_1_wf
def scatter_S200000_S8000000x1_S8000000_n_0_0_1 : ScatterDims S200000 S8000000x1 S8000000 where
  updateWindowDims := []
  insertedWindowDims := [0]
  scatterDimsToOperandDims := [0]
  indexVectorDim := 1
  wf := scatter_S200000_S8000000x1_S8000000_n_0_0_1_wf
def gather_S200000_S20000x1_S20000_n_0_n_n_0_1_1 : GatherDims S200000 S20000x1 S20000 where
  offsetDims := []
  collapsedSliceDims := [0]
  operandBatchingDims := []
  startIndicesBatchingDims := []
  startIndexMap := [0]
  indexVectorDim := 1
  sliceSizes := ![1]
  wf := gather_S200000_S20000x1_S20000_n_0_n_n_0_1_1_wf

class Facts : Prop extends Facts₀ where

variable [Facts]
-- ==== Proof.EdgeFmaBits.lean ====
/-
  The frame run of the per-edge multiply-add kernel (the program as printed, at any float instance).

  The region multiplies and adds three [62500, 128] arrays block by block: eight grid points, blocks of 8192 rows,
  so the last block (rows 57344‥65535) overhangs the arrays by 3036 rows. At each point the three input blocks are
  fetched into whole [8192, 128] staging buffers, the body loads them whole, forms a·b + c lane by lane, and stores
  the whole result block, which is written back. A fetch of the overhanging block fills only the buffer's first
  5156 rows with array rows; the rest of the buffer then holds words nothing names, the body computes on them too,
  and the write-back drops them again. So the proof data names each buffer only on the rows inside the array: the
  input buffers hold their array blocks there, the result buffer holds a·b + c of those blocks there, and past the
  array's end each is filled out with the zero word, which nothing reads. Every window is loose, so the body
  obligation is stated on the rows inside the array only.
-/
import proofs.«149312_j78280073937529_2_alg».proof.Proof.Gen.Kernel.Frame
import proofs.«149312_j78280073937529_2_alg».proof.Proof.Gen.Kernel.Skeleton
import Idealize.ShloMosaic.Lib.Pipeline.Kit
import Idealize.ShloMosaic.Lib.Pipeline.Value
import Idealize.ShloMosaic.Lib.Tactic

set_option maxRecDepth 16384

noncomputable section

namespace Cert.Kernel.EdgeFma

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body on whole staging buffers -/

/-- The whole-buffer rectangle every load and the one store of the body go through. -/
abbrev rWhole : Rect S8192x128 := Rect.unit (s := S8192x128) ![0, 0] S8192x128.size inb_S8192x128_S8192x128_0_0

theorem offs_zero : (![0, 0] : Fin 2 → Nat) = fun _ => 0 := funext fun a => by fin_cases a <;> rfl

/-- What the body's one store leaves in the result buffer, as the canon of that store over the three loads. -/
def stored (x0 x1 x2 : Vec F S8192x128 .f32) : Vec F S8192x128 .f32 :=
  View.canon [⟨rWhole, k0_pay1 (View.ld x0 rWhole) (View.ld x1 rWhole) (View.ld x2 rWhole)⟩]

/-- The one store covers the buffer. -/
theorem stored_cover (p0 : Vec F S8192x128 .f32) (y : S8192x128.Idx) :
    ∃ pc ∈ ([⟨rWhole, p0⟩] : List (View.Piece (Elt F) S8192x128 .f32)), y ∈ pc.1.set :=
  ⟨_, List.mem_singleton_self _, View.mem_set_unit_zero offs_zero inb_S8192x128_S8192x128_0_0 y⟩

/-- Loads and store being whole, the result buffer ends holding the payload of the three buffers' contents:
    a·b + c lane by lane. -/
theorem stored_eq (x0 x1 x2 : Vec F S8192x128 .f32) : stored x0 x1 x2 = k0_pay1 x0 x1 x2 := by
  unfold stored
  rw [View.canon_unit_zero offs_zero, View.ld_unit_zero offs_zero, View.ld_unit_zero offs_zero, View.ld_unit_zero offs_zero]

set_option maxHeartbeats 1000000 in
/-- The body on whole staging memrefs, the inputs' at contents x0, x1, x2 and the result's at anything, runs to the
    continuation with the inputs' unchanged and the result's at the stored block. -/
theorem sound_kernel (c : Dev nD) (E : Set ℕ) (i : grid0.Coords)
    (arg1 : Memref sig .tc .vmem S8192x128 .f32) (harg1 : arg1.IsWhole) (arg2 : Memref sig .tc .vmem S8192x128 .f32) (harg2 : arg2.IsWhole)
    (arg3 : Memref sig .tc .vmem S8192x128 .f32) (harg3 : arg3.IsWhole) (arg4 : Memref sig .tc .vmem S8192x128 .f32) (harg4 : arg4.IsWhole)
    (x0 x1 x2 : Vec F S8192x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
                ∗ owns (c : Thread nD τ) arg4 fullShare (stored x0 x1 x2)) -∗ K ⟨⟩))
      ⊢ wp frame (wpE (defs₀ (F := F)) Variants.none c none) E (cc0__edge_fma_kernel i arg1 harg1 arg2 harg2 arg3 harg3 arg4 harg4) K := by
  simp only [cc0__edge_fma_kernel_eq_skeleton]; unfold cc0__edge_fma_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (stored_cover _)

/-! ## The proof data -/

/-- The filler past the array's end: the zero word (nothing reads it). -/
def zfill : S8192x128.Idx → Elt F .f32 := fun _ => Scalar.ofBits .f32 0#32

/-- The three input blocks at point t, their parts inside the arrays (the four windows have one index map and one
    cut, so one block shape: window 0's). -/
def ablk (c : Dev nD) (t : Fin cfg0.N) : (win0_0.xblock (grid0.coords t)).Idx → Elt F .f32 := iblk m c 0 t
def bblk (c : Dev nD) (t : Fin cfg0.N) : (win0_0.xblock (grid0.coords t)).Idx → Elt F .f32 := iblk m c 1 t
def cblk (c : Dev nD) (t : Fin cfg0.N) : (win0_0.xblock (grid0.coords t)).Idx → Elt F .f32 := iblk m c 2 t

/-- The result block at point t on the rows inside the array: a·b + c of the three input blocks there. -/
def fmaBlk (c : Dev nD) (t : Fin cfg0.N) : (win0_0.xblock (grid0.coords t)).Idx → Elt F .f32 :=
  fun j => FloatOps.addf (FloatOps.mulf (ablk m c t j) (bblk m c t j)) (cblk m c t j)

/-- The proof data of the one pipeline on core c: the arrays as the region finds them; after the body at point t
    each input buffer at its block and the result buffer at a·b + c of the blocks, each filled out with the zero
    word past the array's end; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => win0_0.fill (grid0.coords t) zfill (ablk m c t)
    | ⟨1, _⟩ => win0_0.fill (grid0.coords t) zfill (bblk m c t)
    | ⟨2, _⟩ => win0_0.fill (grid0.coords t) zfill (cblk m c t)
    | ⟨3, _⟩ => win0_0.fill (grid0.coords t) zfill (fmaBlk m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = win0_0.fill (grid0.coords t) zfill (ablk m c t) := by dsimp only [dats]
theorem after1 (c : Dev nD) (t : Fin cfg0.N) : (dats m 0 c).after 1 t = win0_0.fill (grid0.coords t) zfill (bblk m c t) := by dsimp only [dats]
theorem after2 (c : Dev nD) (t : Fin cfg0.N) : (dats m 0 c).after 2 t = win0_0.fill (grid0.coords t) zfill (cblk m c t) := by dsimp only [dats]
theorem after3 (c : Dev nD) (t : Fin cfg0.N) : (dats m 0 c).after 3 t = win0_0.fill (grid0.coords t) zfill (fmaBlk m c t) := by dsimp only [dats]

/-- The result window is never fetched. -/
theorem fetch0_3 : ∀ t : Fin cfg0.N, (cfg0.win 3).fetch t = false :=
  (by decide +kernel : ∀ t : Fin grid0.N, win0_3.fetch t = false)

/-- What the body finds: each input buffer just fetched, its block on the rows inside the array and d elsewhere; -/
theorem before0 (c : Dev nD) (t : Fin cfg0.N) (d) :
    (dats m 0 c).before 0 t d = win0_0.fill (grid0.coords t) d (ablk m c t) := by
  unfold Dat.before; rw [if_pos (fetch0_0 t)]; rfl
theorem before1 (c : Dev nD) (t : Fin cfg0.N) (d) :
    (dats m 0 c).before 1 t d = win0_0.fill (grid0.coords t) d (bblk m c t) := by
  unfold Dat.before; rw [if_pos (fetch0_1 t)]; rfl
theorem before2 (c : Dev nD) (t : Fin cfg0.N) (d) :
    (dats m 0 c).before 2 t d = win0_0.fill (grid0.coords t) d (cblk m c t) := by
  unfold Dat.before; rw [if_pos (fetch0_2 t)]; rfl
/-- the result buffer at contents nothing names (it was written back at the point before, or never filled). -/
theorem before3 (c : Dev nD) (t : Fin cfg0.N) (d) : (dats m 0 c).before 3 t d = d := by
  unfold Dat.before
  rw [if_neg (by rw [fetch0_3 t]; exact Bool.false_ne_true)]
  by_cases h0 : t.val = 0
  · rw [if_pos h0]
  · rw [if_neg h0]; exact if_pos (flush0_3 _)

/-! ## The body obligation -/

/-- On the rows inside the array the payload of three filled-out blocks is a·b + c of the blocks. -/
theorem cut_pay (c : Dev nD) (t : Fin cfg0.N) (d0 d1 d2 : S8192x128.Idx → Elt F .f32) :
    win0_0.cut (grid0.coords t) (k0_pay1 (win0_0.fill (grid0.coords t) d0 (ablk m c t)) (win0_0.fill (grid0.coords t) d1 (bblk m c t))
        (win0_0.fill (grid0.coords t) d2 (cblk m c t)))
      = fmaBlk m c t := by
  funext j
  show k0_pay1 _ _ _ (win0_0.xinj (grid0.coords t) j) = _
  unfold k0_pay1 fmaBlk
  simp only [shapeCast_self, mulf, addf]
  rw [win0_0.fill_xinj, win0_0.fill_xinj, win0_0.fill_xinj]

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns: each buffer stated on the rows inside the array only. -/
def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ (∃ d, owns (c : Thread nD τ) (st0_1 t) fullShare (win0_1.fill (grid0.coords t) d (win0_1.cut (grid0.coords t) ((dats m 0 c).after 1 t))))
    ∗ (∃ d, owns (c : Thread nD τ) (st0_2 t) fullShare (win0_2.fill (grid0.coords t) d (win0_2.cut (grid0.coords t) ((dats m 0 c).after 2 t))))
    ∗ (∃ d, owns (c : Thread nD τ) (st0_3 t) fullShare (win0_3.fill (grid0.coords t) d (win0_3.cut (grid0.coords t) ((dats m 0 c).after 3 t)))))

/-- The body at any point: the input buffers arrive holding their blocks filled out with whatever the fetch left
    past the array's end, the result buffer holding anything; the body leaves the inputs as they were and the result
    at the payload of the three, which on the rows inside the array is a·b + c of the blocks. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩⟩
  rw [before0 m c t d0, before1 m c t d1, before2 m c t d2, before3 m c t d3]
  iapply (sound_kernel (F := F) c Set.univ (grid0.coords t) _ _ _ _ _ _ _ _
    (win0_0.fill (grid0.coords t) d0 (ablk m c t)) (win0_0.fill (grid0.coords t) d1 (bblk m c t))
    (win0_0.fill (grid0.coords t) d2 (cblk m c t)) _)
  isplitl [H0]; · iexact H0
  isplitl [H1]; · iexact H1
  isplitl [H2]; · iexact H2
  isplitl [H3]; · iexists d3; iexact H3
  iintro ⟨H0, H1, H2, H3⟩
  isplitl [HΦ]; · iexact HΦ
  isplitl [Ho]; · iexact Ho
  have h0 : win0_0.cut (grid0.coords t) ((dats m 0 c).after 0 t) = ablk m c t := by rw [after0]; exact win0_0.cut_fill _ _ _
  have h1 : win0_0.cut (grid0.coords t) ((dats m 0 c).after 1 t) = bblk m c t := by rw [after1]; exact win0_0.cut_fill _ _ _
  have h2 : win0_0.cut (grid0.coords t) ((dats m 0 c).after 2 t) = cblk m c t := by rw [after2]; exact win0_0.cut_fill _ _ _
  have h3 : win0_0.cut (grid0.coords t) ((dats m 0 c).after 3 t) = fmaBlk m c t := by rw [after3]; exact win0_0.cut_fill _ _ _
  isplitl [H0]
  · iexists d0
    change _ ⊢ owns (c : Thread nD τ) (st0_0 t) fullShare (win0_0.fill (grid0.coords t) d0 (win0_0.cut (grid0.coords t) ((dats m 0 c).after 0 t)))
    rw [h0]; try iexact H0
  isplitl [H1]
  · iexists d1
    change _ ⊢ owns (c : Thread nD τ) (st0_1 t) fullShare (win0_0.fill (grid0.coords t) d1 (win0_0.cut (grid0.coords t) ((dats m 0 c).after 1 t)))
    rw [h1]; try iexact H1
  isplitl [H2]
  · iexists d2
    change _ ⊢ owns (c : Thread nD τ) (st0_2 t) fullShare (win0_0.fill (grid0.coords t) d2 (win0_0.cut (grid0.coords t) ((dats m 0 c).after 2 t)))
    rw [h2]; try iexact H2
  · iexists stored (win0_0.fill (grid0.coords t) d0 (ablk m c t)) (win0_0.fill (grid0.coords t) d1 (bblk m c t)) (win0_0.fill (grid0.coords t) d2 (cblk m c t))
    change _ ⊢ owns (c : Thread nD τ) (st0_3 t) fullShare (win0_0.fill (grid0.coords t) _ (win0_0.cut (grid0.coords t) ((dats m 0 c).after 3 t)))
    rw [h3, ← cut_pay m c t d0 d1 d2, ← stored_eq, win0_0.fill_cut]; try iexact H3

/-- The library's body obligation at every point: every window is loose and none is idle, so it is `sound_body`. -/
theorem body_obligation (c : Dev nD) : BodyObligationLoose (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what
    the library computes from the proof data and every other unscoped buffer as the host lines after the region
    leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the run terminates without a fault and the five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.EdgeFma

end
-- ==== Proof.EdgeFmaIdeal.lean ====
/-
  The frame run of the per-edge multiply-add kernel (the idealized program, at any float instance).

  The region multiplies and adds three [62500, 128] arrays block by block: eight grid points, blocks of 8192 rows,
  so the last block (rows 57344‥65535) overhangs the arrays by 3036 rows. At each point the three input blocks are
  fetched into whole [8192, 128] staging buffers, the body loads them whole, forms a·b + c lane by lane, and stores
  the whole result block, which is written back. A fetch of the overhanging block fills only the buffer's first
  5156 rows with array rows; the rest of the buffer then holds words nothing names, the body computes on them too,
  and the write-back drops them again. So the proof data names each buffer only on the rows inside the array: the
  input buffers hold their array blocks there, the result buffer holds a·b + c of those blocks there, and past the
  array's end each is filled out with the zero word, which nothing reads. Every window is loose, so the body
  obligation is stated on the rows inside the array only.
-/
import proofs.«149312_j78280073937529_2_alg».proof.Proof.Gen.KernelIdeal.Frame
import proofs.«149312_j78280073937529_2_alg».proof.Proof.Gen.KernelIdeal.Skeleton
import Idealize.ShloMosaic.Lib.Pipeline.Kit
import Idealize.ShloMosaic.Lib.Pipeline.Value
import Idealize.ShloMosaic.Lib.Tactic

set_option maxRecDepth 16384

noncomputable section

namespace Cert.KernelIdeal.EdgeFma

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body on whole staging buffers -/

/-- The whole-buffer rectangle every load and the one store of the body go through. -/
abbrev rWhole : Rect S8192x128 := Rect.unit (s := S8192x128) ![0, 0] S8192x128.size inb_S8192x128_S8192x128_0_0

theorem offs_zero : (![0, 0] : Fin 2 → Nat) = fun _ => 0 := funext fun a => by fin_cases a <;> rfl

/-- What the body's one store leaves in the result buffer, as the canon of that store over the three loads. -/
def stored (x0 x1 x2 : Vec F S8192x128 .f32) : Vec F S8192x128 .f32 :=
  View.canon [⟨rWhole, k0_pay1 (View.ld x0 rWhole) (View.ld x1 rWhole) (View.ld x2 rWhole)⟩]

/-- The one store covers the buffer. -/
theorem stored_cover (p0 : Vec F S8192x128 .f32) (y : S8192x128.Idx) :
    ∃ pc ∈ ([⟨rWhole, p0⟩] : List (View.Piece (Elt F) S8192x128 .f32)), y ∈ pc.1.set :=
  ⟨_, List.mem_singleton_self _, View.mem_set_unit_zero offs_zero inb_S8192x128_S8192x128_0_0 y⟩

/-- Loads and store being whole, the result buffer ends holding the payload of the three buffers' contents:
    a·b + c lane by lane. -/
theorem stored_eq (x0 x1 x2 : Vec F S8192x128 .f32) : stored x0 x1 x2 = k0_pay1 x0 x1 x2 := by
  unfold stored
  rw [View.canon_unit_zero offs_zero, View.ld_unit_zero offs_zero, View.ld_unit_zero offs_zero, View.ld_unit_zero offs_zero]

set_option maxHeartbeats 1000000 in
/-- The body on whole staging memrefs, the inputs' at contents x0, x1, x2 and the result's at anything, runs to the
    continuation with the inputs' unchanged and the result's at the stored block. -/
theorem sound_kernel (c : Dev nD) (E : Set ℕ) (i : grid0.Coords)
    (arg1 : Memref sig .tc .vmem S8192x128 .f32) (harg1 : arg1.IsWhole) (arg2 : Memref sig .tc .vmem S8192x128 .f32) (harg2 : arg2.IsWhole)
    (arg3 : Memref sig .tc .vmem S8192x128 .f32) (harg3 : arg3.IsWhole) (arg4 : Memref sig .tc .vmem S8192x128 .f32) (harg4 : arg4.IsWhole)
    (x0 x1 x2 : Vec F S8192x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
                ∗ owns (c : Thread nD τ) arg4 fullShare (stored x0 x1 x2)) -∗ K ⟨⟩))
      ⊢ wp frame (wpE (defs₀ (F := F)) Variants.none c none) E (cc0__edge_fma_kernel i arg1 harg1 arg2 harg2 arg3 harg3 arg4 harg4) K := by
  simp only [cc0__edge_fma_kernel_eq_skeleton]; unfold cc0__edge_fma_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (stored_cover _)

/-! ## The proof data -/

/-- The filler past the array's end: the zero word (nothing reads it). -/
def zfill : S8192x128.Idx → Elt F .f32 := fun _ => Scalar.ofBits .f32 0#32

/-- The three input blocks at point t, their parts inside the arrays (the four windows have one index map and one
    cut, so one block shape: window 0's). -/
def ablk (c : Dev nD) (t : Fin cfg0.N) : (win0_0.xblock (grid0.coords t)).Idx → Elt F .f32 := iblk m c 0 t
def bblk (c : Dev nD) (t : Fin cfg0.N) : (win0_0.xblock (grid0.coords t)).Idx → Elt F .f32 := iblk m c 1 t
def cblk (c : Dev nD) (t : Fin cfg0.N) : (win0_0.xblock (grid0.coords t)).Idx → Elt F .f32 := iblk m c 2 t

/-- The result block at point t on the rows inside the array: a·b + c of the three input blocks there. -/
def fmaBlk (c : Dev nD) (t : Fin cfg0.N) : (win0_0.xblock (grid0.coords t)).Idx → Elt F .f32 :=
  fun j => FloatOps.addf (FloatOps.mulf (ablk m c t j) (bblk m c t j)) (cblk m c t j)

/-- The proof data of the one pipeline on core c: the arrays as the region finds them; after the body at point t
    each input buffer at its block and the result buffer at a·b + c of the blocks, each filled out with the zero
    word past the array's end; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => win0_0.fill (grid0.coords t) zfill (ablk m c t)
    | ⟨1, _⟩ => win0_0.fill (grid0.coords t) zfill (bblk m c t)
    | ⟨2, _⟩ => win0_0.fill (grid0.coords t) zfill (cblk m c t)
    | ⟨3, _⟩ => win0_0.fill (grid0.coords t) zfill (fmaBlk m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = win0_0.fill (grid0.coords t) zfill (ablk m c t) := by dsimp only [dats]
theorem after1 (c : Dev nD) (t : Fin cfg0.N) : (dats m 0 c).after 1 t = win0_0.fill (grid0.coords t) zfill (bblk m c t) := by dsimp only [dats]
theorem after2 (c : Dev nD) (t : Fin cfg0.N) : (dats m 0 c).after 2 t = win0_0.fill (grid0.coords t) zfill (cblk m c t) := by dsimp only [dats]
theorem after3 (c : Dev nD) (t : Fin cfg0.N) : (dats m 0 c).after 3 t = win0_0.fill (grid0.coords t) zfill (fmaBlk m c t) := by dsimp only [dats]

/-- The result window is never fetched. -/
theorem fetch0_3 : ∀ t : Fin cfg0.N, (cfg0.win 3).fetch t = false :=
  (by decide +kernel : ∀ t : Fin grid0.N, win0_3.fetch t = false)

/-- What the body finds: each input buffer just fetched, its block on the rows inside the array and d elsewhere; -/
theorem before0 (c : Dev nD) (t : Fin cfg0.N) (d) :
    (dats m 0 c).before 0 t d = win0_0.fill (grid0.coords t) d (ablk m c t) := by
  unfold Dat.before; rw [if_pos (fetch0_0 t)]; rfl
theorem before1 (c : Dev nD) (t : Fin cfg0.N) (d) :
    (dats m 0 c).before 1 t d = win0_0.fill (grid0.coords t) d (bblk m c t) := by
  unfold Dat.before; rw [if_pos (fetch0_1 t)]; rfl
theorem before2 (c : Dev nD) (t : Fin cfg0.N) (d) :
    (dats m 0 c).before 2 t d = win0_0.fill (grid0.coords t) d (cblk m c t) := by
  unfold Dat.before; rw [if_pos (fetch0_2 t)]; rfl
/-- the result buffer at contents nothing names (it was written back at the point before, or never filled). -/
theorem before3 (c : Dev nD) (t : Fin cfg0.N) (d) : (dats m 0 c).before 3 t d = d := by
  unfold Dat.before
  rw [if_neg (by rw [fetch0_3 t]; exact Bool.false_ne_true)]
  by_cases h0 : t.val = 0
  · rw [if_pos h0]
  · rw [if_neg h0]; exact if_pos (flush0_3 _)

/-! ## The body obligation -/

/-- On the rows inside the array the payload of three filled-out blocks is a·b + c of the blocks. -/
theorem cut_pay (c : Dev nD) (t : Fin cfg0.N) (d0 d1 d2 : S8192x128.Idx → Elt F .f32) :
    win0_0.cut (grid0.coords t) (k0_pay1 (win0_0.fill (grid0.coords t) d0 (ablk m c t)) (win0_0.fill (grid0.coords t) d1 (bblk m c t))
        (win0_0.fill (grid0.coords t) d2 (cblk m c t)))
      = fmaBlk m c t := by
  funext j
  show k0_pay1 _ _ _ (win0_0.xinj (grid0.coords t) j) = _
  unfold k0_pay1 fmaBlk
  simp only [shapeCast_self, mulf, addf]
  rw [win0_0.fill_xinj, win0_0.fill_xinj, win0_0.fill_xinj]

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns: each buffer stated on the rows inside the array only. -/
def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ (∃ d, owns (c : Thread nD τ) (st0_1 t) fullShare (win0_1.fill (grid0.coords t) d (win0_1.cut (grid0.coords t) ((dats m 0 c).after 1 t))))
    ∗ (∃ d, owns (c : Thread nD τ) (st0_2 t) fullShare (win0_2.fill (grid0.coords t) d (win0_2.cut (grid0.coords t) ((dats m 0 c).after 2 t))))
    ∗ (∃ d, owns (c : Thread nD τ) (st0_3 t) fullShare (win0_3.fill (grid0.coords t) d (win0_3.cut (grid0.coords t) ((dats m 0 c).after 3 t)))))

/-- The body at any point: the input buffers arrive holding their blocks filled out with whatever the fetch left
    past the array's end, the result buffer holding anything; the body leaves the inputs as they were and the result
    at the payload of the three, which on the rows inside the array is a·b + c of the blocks. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩⟩
  rw [before0 m c t d0, before1 m c t d1, before2 m c t d2, before3 m c t d3]
  iapply (sound_kernel (F := F) c Set.univ (grid0.coords t) _ _ _ _ _ _ _ _
    (win0_0.fill (grid0.coords t) d0 (ablk m c t)) (win0_0.fill (grid0.coords t) d1 (bblk m c t))
    (win0_0.fill (grid0.coords t) d2 (cblk m c t)) _)
  isplitl [H0]; · iexact H0
  isplitl [H1]; · iexact H1
  isplitl [H2]; · iexact H2
  isplitl [H3]; · iexists d3; iexact H3
  iintro ⟨H0, H1, H2, H3⟩
  isplitl [HΦ]; · iexact HΦ
  isplitl [Ho]; · iexact Ho
  have h0 : win0_0.cut (grid0.coords t) ((dats m 0 c).after 0 t) = ablk m c t := by rw [after0]; exact win0_0.cut_fill _ _ _
  have h1 : win0_0.cut (grid0.coords t) ((dats m 0 c).after 1 t) = bblk m c t := by rw [after1]; exact win0_0.cut_fill _ _ _
  have h2 : win0_0.cut (grid0.coords t) ((dats m 0 c).after 2 t) = cblk m c t := by rw [after2]; exact win0_0.cut_fill _ _ _
  have h3 : win0_0.cut (grid0.coords t) ((dats m 0 c).after 3 t) = fmaBlk m c t := by rw [after3]; exact win0_0.cut_fill _ _ _
  isplitl [H0]
  · iexists d0
    change _ ⊢ owns (c : Thread nD τ) (st0_0 t) fullShare (win0_0.fill (grid0.coords t) d0 (win0_0.cut (grid0.coords t) ((dats m 0 c).after 0 t)))
    rw [h0]; try iexact H0
  isplitl [H1]
  · iexists d1
    change _ ⊢ owns (c : Thread nD τ) (st0_1 t) fullShare (win0_0.fill (grid0.coords t) d1 (win0_0.cut (grid0.coords t) ((dats m 0 c).after 1 t)))
    rw [h1]; try iexact H1
  isplitl [H2]
  · iexists d2
    change _ ⊢ owns (c : Thread nD τ) (st0_2 t) fullShare (win0_0.fill (grid0.coords t) d2 (win0_0.cut (grid0.coords t) ((dats m 0 c).after 2 t)))
    rw [h2]; try iexact H2
  · iexists stored (win0_0.fill (grid0.coords t) d0 (ablk m c t)) (win0_0.fill (grid0.coords t) d1 (bblk m c t)) (win0_0.fill (grid0.coords t) d2 (cblk m c t))
    change _ ⊢ owns (c : Thread nD τ) (st0_3 t) fullShare (win0_0.fill (grid0.coords t) _ (win0_0.cut (grid0.coords t) ((dats m 0 c).after 3 t)))
    rw [h3, ← cut_pay m c t d0 d1 d2, ← stored_eq, win0_0.fill_cut]; try iexact H3

/-- The library's body obligation at every point: every window is loose and none is idle, so it is `sound_body`. -/
theorem body_obligation (c : Dev nD) : BodyObligationLoose (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what
    the library computes from the proof data and every other unscoped buffer as the host lines after the region
    leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the run terminates without a fault and the five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.EdgeFma

end
-- ==== Proof.EdgeFmaValue.lean ====
/-
  What the region's output array holds after the run, at the idealized program: the lane-wise a·b + c of the three
  input arrays as the region finds them.

  Point t writes back the rows inside the array of the result buffer, which hold a·b + c of the three input blocks at t;
  the four windows share one index map (block t is rows 8192·t ‥ 8192·t + 8191, cut at row 62500) so that is block t
  of the whole-array a·b + c. Row r of the array lies in the block of point r / 8192, so the eight write-backs cover
  the array and it ends holding a·b + c everywhere.
-/
import proofs.«149312_j78280073937529_2_alg».proof.Proof.EdgeFmaIdeal

set_option maxRecDepth 16384

noncomputable section

namespace Cert.KernelIdeal.EdgeFma

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-- The lane-wise a·b + c of the three input arrays as the region finds them. -/
abbrev fmaArr (c : Dev nD) : Buf (Elt F) ((c : Thread nD τ).loc main_v25) :=
  addf (s := S62500x128) (mulf (s := S62500x128) (V m c main_v22) (V m c main_v23)) (V m c main_v24)

/-- What point t writes back is block t of the whole-array a·b + c. -/
theorem flushed_eq (c : Dev nD) (t : Fin cfg0.N) :
    (dats m 0 c).flushed 3 t = ((cfg0.win 3).blk t).view.read (Elt F) (fmaArr m c) := by
  change win0_0.cut (grid0.coords t) ((dats m 0 c).after 3 t) = fmaBlk m c t
  rw [after3]; exact win0_0.cut_fill _ _ _

/-- The output window's blocks, decided over the eight points: block t starts at row 8192·t and lane 0, spans all 128
    lanes, and has 8192 rows inside the array but for the last, which has 5156. -/
theorem blk_facts : ∀ t : Fin cfg0.N, win0_3.index t (0 : Fin 2) = t.val ∧ win0_3.index t (1 : Fin 2) = 0
    ∧ win0_3.xsize (grid0.coords t) (0 : Fin 2) = (if t.val = 7 then 5156 else 8192)
    ∧ win0_3.xsize (grid0.coords t) (1 : Fin 2) = 128 :=
  (by decide +kernel : ∀ t : Fin grid0.N, _)

/-- An index of the array is in point t's block iff each coordinate is in the block's range on its axis. -/
theorem mem_blk (t : Fin cfg0.N) (i : S62500x128.Idx) :
    i ∈ ((cfg0.win 3).blk t).view.set ↔ ∀ a : Fin 2, win0_3.index t a * S8192x128.size a ≤ (i a).val
      ∧ (i a).val < win0_3.index t a * S8192x128.size a + win0_3.xsize (grid0.coords t) a := by
  show i ∈ ((View.whole main_v25).slice (win0_3.rect t)).set ↔ _
  rw [View.set_slice_whole, Rect.mem_set_unit]
  exact Iff.rfl

/-- Every index of the array is in the block of the point its row falls to. -/
theorem cover (i : S62500x128.Idx) :
    ∃ t : Fin cfg0.N, (cfg0.win 3).flush t = true ∧ i ∈ ((cfg0.win 3).blk t).view.set := by
  have hi0 : (i 0).val < 62500 := (i 0).isLt
  have hi1 : (i 1).val < 128 := (i 1).isLt
  have hN : cfg0.N = 8 := N_0
  let t : Fin cfg0.N := ⟨(i 0).val / 8192, by rw [hN]; omega⟩
  have ht : t.val = (i 0).val / 8192 := rfl
  refine ⟨t, flush0_3 t, ?_⟩
  rw [mem_blk]
  obtain ⟨e0, e1, e2, e3⟩ := blk_facts t
  intro a
  match a with
  | ⟨0, _⟩ =>
    show win0_3.index t (0 : Fin 2) * 8192 ≤ (i 0).val ∧ (i 0).val < win0_3.index t (0 : Fin 2) * 8192 + win0_3.xsize (grid0.coords t) (0 : Fin 2)
    rw [e0, e2, ht]
    split <;> omega
  | ⟨1, _⟩ =>
    show win0_3.index t (1 : Fin 2) * 128 ≤ (i 1).val ∧ (i 1).val < win0_3.index t (1 : Fin 2) * 128 + win0_3.xsize (grid0.coords t) (1 : Fin 2)
    rw [e1, e3]
    omega

/-- The output array after the run: a·b + c of the input arrays, everywhere. -/
theorem final_out (c : Dev nD) : (dats m 0 c).arrAt 3 cfg0.N = fmaArr m c :=
  (dats m 0 c).arrAt_eq_of_cover 3 (fmaArr m c) (fun t _ => flushed_eq m c t) cover

/-- The run re-posted at the program's result: it ends holding what the host lines after the region compute from the
    region's output array and the region-entry contents; the arguments end as launched. -/
theorem run_result : θ_run defs (onTc (τ := τ) (main (F := F))) ⟨m, fun _ => 0, ρ⟩ (fun r => ∀ c : Dev nD,
      r.2.mem ((c.tc : Thread nD τ).loc main_v44) = Pipeline.afterTail₀ cfgs (dats m) 0 (V0 m) [hostOps1] c main_v44
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).2 main_v44 (Pipeline.mem_restRefs_of main_v44 (by decide) (by decide)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩)
    (run_main m ρ)

end Cert.KernelIdeal.EdgeFma

end
-- ==== Proof.HostBridge.lean ====
/-
  The host program around the fused multiply-add on the edges.

  Both programs read five arrays: the constraint features `x0 : f32[100000, 5]`, the variable features
  `x1 : f32[200000, 19]`, the edge table `x2 : i32[2, 8000000]` (row 0 the constraint of each edge, row 1 its
  variable), the edge weights `x3 : f32[8000000]` and the candidates `x4 : i32[20000]`. With `v e` and `k e` the
  variable and the constraint of edge `e` (a negative index counted from the end), both compute

      msg e  = x1[v e, 5] * x3 e + x0[k e, 2]
      agg j  = the sum of msg e over the edges e with v e = j
      res j  = agg j * x1[j, 0] + sqrt |x1[j, 3]|
      out i  = res (x4 i)

  and differ in one place only: the reference forms `msg` on vectors of 8000000 entries, the kernel's program views
  its three operands as 62500 rows of 128, forms the product and the sum there, and views the result as a vector
  again. Every other operation of the two programs is the same operation on the same operands.

  So the two results are ONE function `result` of the five arrays, the part after `msg` kept as one function
  `hostTail` of `msg` that neither side looks into. The reference's term is `result` by unfolding the names
  (`reference_result`). The kernel's program ends at `result` as soon as the fused region leaves
  `a * b + c` of the three arrays it was given (`kernel_result`, that fact a hypothesis), by the one law this
  certificate needs: viewing vectors under another shape, applying an operation entry by entry, and viewing the
  outcome under the first shape again is the operation applied entry by entry (`shapeCast_fma`), because the two
  views are mutually inverse re-indexings.
-/
import proofs.«149312_j78280073937529_2_alg».proof.Proof.Gen.KernelIdeal.Frame
import proofs.«149312_j78280073937529_2_alg».proof.Proof.Gen.ReferenceIdeal.Run
import Idealize.ShloMosaic.Lib.Pipeline.Value
import Idealize.ShloMosaic.PureOps.Ideal

noncomputable section

/-! ## The common function, in the reference's vocabulary -/

namespace Cert.ReferenceIdeal.HostBridge

open Cert.ReferenceIdeal Cert.ReferenceIdeal.Gen Idealize.ShloMosaic Idealize.ShloMosaic.TcCoe Idealize.SL.Sem Idealize.ShloMosaic.StableHlo

/-- The variable of each edge: row 1 of the edge table, as a vector of 8000000 indices. -/
def varIdx (a2 : (⟨S2x8000000, .i32⟩ : BufTy).Contents (Elt Ideal)) : (⟨S8000000, .i32⟩ : BufTy).Contents (Elt Ideal) :=
  shapeCast _ (extractStridedSlice S1x8000000 ![1, 0] a2 slices_S2x8000000_S1x8000000_1_0) shapeCasts_S1x8000000_S8000000

/-- The constraint of each edge: row 0 of the edge table. -/
def consIdx (a2 : (⟨S2x8000000, .i32⟩ : BufTy).Contents (Elt Ideal)) : (⟨S8000000, .i32⟩ : BufTy).Contents (Elt Ideal) :=
  shapeCast _ (extractStridedSlice S1x8000000 ![0, 0] a2 slices_S2x8000000_S1x8000000_0_0) shapeCasts_S1x8000000_S8000000

/-- Column 5 of the variable features read at each edge's variable, an index below zero counted from the end
    (200000 added to it). -/
def varCoef (a1 : FVec Ideal S200000x19 .f32) (a2 : (⟨S2x8000000, .i32⟩ : BufTy).Contents (Elt Ideal)) : FVec Ideal S8000000 .f32 :=
  Host.gather gather_S200000_S8000000x1_S8000000_n_0_n_n_0_1_1 (shapeCast _ (extractStridedSlice S200000x1 ![0, 5] a1 slices_S200000x19_S200000x1_0_5) shapeCasts_S200000x1_S200000) (broadcastInDim S8000000x1 ![0] bcast_S8000000_S8000000x1_0 (select (cmpi .slt (varIdx a2) (broadcastInDim S8000000 ![] bcast_S_S8000000 (constantI S_ 32 0#32))) (addi (varIdx a2) (broadcastInDim S8000000 ![] bcast_S_S8000000 (constantI S_ 32 200000#32))) (varIdx a2)))

/-- Column 2 of the constraint features read at each edge's constraint, an index below zero counted from the end
    (100000 added to it). -/
def consTerm (a0 : FVec Ideal S100000x5 .f32) (a2 : (⟨S2x8000000, .i32⟩ : BufTy).Contents (Elt Ideal)) : FVec Ideal S8000000 .f32 :=
  Host.gather gather_S100000_S8000000x1_S8000000_n_0_n_n_0_1_1 (shapeCast _ (extractStridedSlice S100000x1 ![0, 2] a0 slices_S100000x5_S100000x1_0_2) shapeCasts_S100000x1_S100000) (broadcastInDim S8000000x1 ![0] bcast_S8000000_S8000000x1_0 (select (cmpi .slt (consIdx a2) (broadcastInDim S8000000 ![] bcast_S_S8000000 (constantI S_ 32 0#32))) (addi (consIdx a2) (broadcastInDim S8000000 ![] bcast_S_S8000000 (constantI S_ 32 100000#32))) (consIdx a2)))

/-- Everything after the edge messages `u`: their sums per variable (added into a zero vector at the indices `j`),
    times column 0 of the variable features, plus the square root of the absolute value of column 3, read at the
    candidates `a4` (an index below zero counted from the end). One function of `u`: both programs apply it, and no
    statement below looks inside it. -/
def hostTail (u : FVec Ideal S8000000 .f32) (j : (⟨S8000000, .i32⟩ : BufTy).Contents (Elt Ideal)) (a1 : FVec Ideal S200000x19 .f32) (a4 : (⟨S20000, .i32⟩ : BufTy).Contents (Elt Ideal)) : FVec Ideal S20000 .f32 :=
  Host.gather gather_S200000_S20000x1_S20000_n_0_n_n_0_1_1 (addf (mulf (Host.scatterAdd scatter_S200000_S8000000x1_S8000000_n_0_0_1 (broadcastInDim S200000 ![] bcast_S_S200000 (constant (F := Ideal) S_ .f32 0x00000000#32)) (broadcastInDim S8000000x1 ![0] bcast_S8000000_S8000000x1_0 j) u) (shapeCast _ (extractStridedSlice S200000x1 ![0, 0] a1 slices_S200000x19_S200000x1_0_0) shapeCasts_S200000x1_S200000)) (Host.sqrt (Host.absf (shapeCast _ (extractStridedSlice S200000x1 ![0, 3] a1 slices_S200000x19_S200000x1_0_3) shapeCasts_S200000x1_S200000)))) (broadcastInDim S20000x1 ![0] bcast_S20000_S20000x1_0 (select (cmpi .slt a4 (broadcastInDim S20000 ![] bcast_S_S20000 (constantI S_ 32 0#32))) (addi a4 (broadcastInDim S20000 ![] bcast_S_S20000 (constantI S_ 32 200000#32))) a4))

/-- The result of both programs as one function of the five arrays: the messages
    `x1[v e, 5] * x3 e + x0[k e, 2]` handed to `hostTail`. -/
def result (a0 : FVec Ideal S100000x5 .f32) (a1 : FVec Ideal S200000x19 .f32) (a2 : (⟨S2x8000000, .i32⟩ : BufTy).Contents (Elt Ideal)) (a3 : FVec Ideal S8000000 .f32) (a4 : (⟨S20000, .i32⟩ : BufTy).Contents (Elt Ideal)) : FVec Ideal S20000 .f32 :=
  hostTail (addf (mulf (varCoef a1 a2) a3) (consTerm a0 a2)) (varIdx a2) a1 a4

set_option maxRecDepth 8192 in
/-- The term the reference's generated run states for its result is `result` of the five arrays as launched: the
    same operations on the same operands, with the names above unfolded. -/
theorem reference_result (m : (ℓ : Loc nD τ sig) → Buf (Elt Ideal) ℓ) (c : Dev nD) :
    Host.gather gather_S200000_S20000x1_S20000_n_0_n_n_0_1_1 (addf (mulf (Host.scatterAdd scatter_S200000_S8000000x1_S8000000_n_0_0_1 (broadcastInDim S200000 ![] bcast_S_S200000 (constant (F := Ideal) S_ .f32 0x00000000#32)) (broadcastInDim S8000000x1 ![0] bcast_S8000000_S8000000x1_0 (shapeCast _ (extractStridedSlice S1x8000000 ![1, 0] (m ((c.tc : Thread nD τ).loc main_arg2)) slices_S2x8000000_S1x8000000_1_0) shapeCasts_S1x8000000_S8000000)) (addf (mulf (Host.gather gather_S200000_S8000000x1_S8000000_n_0_n_n_0_1_1 (shapeCast _ (extractStridedSlice S200000x1 ![0, 5] (m ((c.tc : Thread nD τ).loc main_arg1)) slices_S200000x19_S200000x1_0_5) shapeCasts_S200000x1_S200000) (broadcastInDim S8000000x1 ![0] bcast_S8000000_S8000000x1_0 (select (cmpi .slt (shapeCast _ (extractStridedSlice S1x8000000 ![1, 0] (m ((c.tc : Thread nD τ).loc main_arg2)) slices_S2x8000000_S1x8000000_1_0) shapeCasts_S1x8000000_S8000000) (broadcastInDim S8000000 ![] bcast_S_S8000000 (constantI S_ 32 0#32))) (addi (shapeCast _ (extractStridedSlice S1x8000000 ![1, 0] (m ((c.tc : Thread nD τ).loc main_arg2)) slices_S2x8000000_S1x8000000_1_0) shapeCasts_S1x8000000_S8000000) (broadcastInDim S8000000 ![] bcast_S_S8000000 (constantI S_ 32 200000#32))) (shapeCast _ (extractStridedSlice S1x8000000 ![1, 0] (m ((c.tc : Thread nD τ).loc main_arg2)) slices_S2x8000000_S1x8000000_1_0) shapeCasts_S1x8000000_S8000000)))) (m ((c.tc : Thread nD τ).loc main_arg3))) (Host.gather gather_S100000_S8000000x1_S8000000_n_0_n_n_0_1_1 (shapeCast _ (extractStridedSlice S100000x1 ![0, 2] (m ((c.tc : Thread nD τ).loc main_arg0)) slices_S100000x5_S100000x1_0_2) shapeCasts_S100000x1_S100000) (broadcastInDim S8000000x1 ![0] bcast_S8000000_S8000000x1_0 (select (cmpi .slt (shapeCast _ (extractStridedSlice S1x8000000 ![0, 0] (m ((c.tc : Thread nD τ).loc main_arg2)) slices_S2x8000000_S1x8000000_0_0) shapeCasts_S1x8000000_S8000000) (broadcastInDim S8000000 ![] bcast_S_S8000000 (constantI S_ 32 0#32))) (addi (shapeCast _ (extractStridedSlice S1x8000000 ![0, 0] (m ((c.tc : Thread nD τ).loc main_arg2)) slices_S2x8000000_S1x8000000_0_0) shapeCasts_S1x8000000_S8000000) (broadcastInDim S8000000 ![] bcast_S_S8000000 (constantI S_ 32 100000#32))) (shapeCast _ (extractStridedSlice S1x8000000 ![0, 0] (m ((c.tc : Thread nD τ).loc main_arg2)) slices_S2x8000000_S1x8000000_0_0) shapeCasts_S1x8000000_S8000000)))))) (shapeCast _ (extractStridedSlice S200000x1 ![0, 0] (m ((c.tc : Thread nD τ).loc main_arg1)) slices_S200000x19_S200000x1_0_0) shapeCasts_S200000x1_S200000)) (Host.sqrt (Host.absf (shapeCast _ (extractStridedSlice S200000x1 ![0, 3] (m ((c.tc : Thread nD τ).loc main_arg1)) slices_S200000x19_S200000x1_0_3) shapeCasts_S200000x1_S200000)))) (broadcastInDim S20000x1 ![0] bcast_S20000_S20000x1_0 (select (cmpi .slt (m ((c.tc : Thread nD τ).loc main_arg4)) (broadcastInDim S20000 ![] bcast_S_S20000 (constantI S_ 32 0#32))) (addi (m ((c.tc : Thread nD τ).loc main_arg4)) (broadcastInDim S20000 ![] bcast_S_S20000 (constantI S_ 32 200000#32))) (m ((c.tc : Thread nD τ).loc main_arg4))))
      = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

end Cert.ReferenceIdeal.HostBridge

/-! ## The kernel's program ends at the same function -/

namespace Cert.KernelIdeal.HostBridge

open Cert.KernelIdeal Cert.KernelIdeal.Gen
open Idealize.ShloMosaic Idealize.ShloMosaic.TcCoe Idealize.ShloMosaic.Tactic
open Idealize.SL Idealize.SL.Sem
open Cert.ReferenceIdeal.HostBridge (varIdx consIdx varCoef consTerm hostTail result)

/-- The one law. Viewing three vectors under another shape `t` of as many entries, multiplying the first two and adding
    the third entry by entry, and viewing the outcome under the first shape `s` again is the product and the sum taken
    under `s`: the view back undoes the view there at every entry, and the operations act on each entry alone. -/
theorem shapeCast_fma {s t : Shape} {φ : FTy} (A B C : FVec Ideal s φ) (h : s.ShapeCasts t) (h' : t.ShapeCasts s) :
    shapeCast s (addf (F := Ideal) (s := t) (mulf (F := Ideal) (s := t) (shapeCast t A h) (shapeCast t B h)) (shapeCast t C h)) h'
      = addf (mulf A B) C := by
  funext i
  exact congrArg₂ FloatOps.addf (congrArg₂ FloatOps.mulf (congrFun (shapeCast_shapeCast A h h') i) (congrFun (shapeCast_shapeCast B h h') i))
    (congrFun (shapeCast_shapeCast C h h') i)

section
variable (m : (ℓ : Loc nD τ sig) → Buf (Elt Ideal) ℓ) (c : Dev nD)

/-- What the region finds, read off the operations before it. The variable of each edge; -/
theorem entry_main_v3 : V m c main_v3 = varIdx (m ((c.tc : Thread nD τ).loc main_arg2)) := by
  show StableHlo.after hostOps0 (fun b => m (c, b)) (Proc.devRef .tc main_v3) = _
  after_results
  rfl

/-- its first operand: the gathered variable column as 62500 rows of 128; -/
theorem entry_main_v22 : V m c main_v22 = shapeCast S62500x128 (varCoef (m ((c.tc : Thread nD τ).loc main_arg1)) (m ((c.tc : Thread nD τ).loc main_arg2))) shapeCasts_S8000000_S62500x128 := by
  show StableHlo.after hostOps0 (fun b => m (c, b)) (Proc.devRef .tc main_v22) = _
  after_results
  rfl

/-- its second: the edge weights as launched, in the same view; -/
theorem entry_main_v23 : V m c main_v23 = shapeCast S62500x128 (m ((c.tc : Thread nD τ).loc main_arg3)) shapeCasts_S8000000_S62500x128 := by
  show StableHlo.after hostOps0 (fun b => m (c, b)) (Proc.devRef .tc main_v23) = _
  after_results
  rfl

set_option maxHeartbeats 1000000 in
/-- its third: the gathered constraint column, in the same view. -/
theorem entry_main_v24 : V m c main_v24 = shapeCast S62500x128 (consTerm (m ((c.tc : Thread nD τ).loc main_arg0)) (m ((c.tc : Thread nD τ).loc main_arg2))) shapeCasts_S8000000_S62500x128 := by
  show StableHlo.after hostOps0 (fun b => m (c, b)) (Proc.devRef .tc main_v24) = _
  after_results_simp
  rfl

end

set_option maxHeartbeats 2000000 in
/-- The operations after the region, from ANY buffer contents `W`: their last result is `hostTail` of the region's
    output `u` viewed as a vector, of the edges' variables `j`, the variable features `a1` and the candidates `a4` —
    the four buffers those operations read that they do not write themselves. -/
theorem tail_of (W : Valuation τ sig (Elt Ideal)) (u : FVec Ideal S62500x128 .f32) (j : (⟨S8000000, .i32⟩ : BufTy).Contents (Elt Ideal))
    (a1 : FVec Ideal S200000x19 .f32) (a4 : (⟨S20000, .i32⟩ : BufTy).Contents (Elt Ideal))
    (h25 : W (Proc.devRef .tc main_v25) = u) (h3 : W (Proc.devRef .tc main_v3) = j)
    (h1 : W (Proc.devRef .tc main_arg1) = a1) (h4 : W (Proc.devRef .tc main_arg4) = a4) :
    StableHlo.after hostOps1 W (Proc.devRef .tc main_v44)
      = hostTail (shapeCast S8000000 u shapeCasts_S62500x128_S8000000) j a1 a4 := by
  subst h25 h3 h1 h4
  after_results_simp
  rfl

/-- The kernel's program ends at `result` of the five arrays as launched, for any proof data of the region whose output
    array ends at `a * b + c` of the three arrays the region was given (`hfin`). After the region the output array is
    what the region left and every other buffer is as the region found it; the region found its three operands as views
    of the gathered variable column, of the edge weights and of the gathered constraint column; and the view back of
    `a * b + c` of three views is the message vector (`shapeCast_fma`). What remains is `hostTail` of the same
    messages on both sides. -/
theorem kernel_result (m : (ℓ : Loc nD τ sig) → Buf (Elt Ideal) ℓ)
    (dats : (p : Fin 1) → (c : Dev nD) → Pipeline.Dat τ (Elt Ideal) Unit ℕ (UR sig nD τ) ℕ (cfgs p) c) (c : Dev nD)
    (hfin : (dats 0 c).arrAt 3 cfg0.N
      = addf (F := Ideal) (s := S62500x128) (φ := .f32) (mulf (F := Ideal) (s := S62500x128) (φ := .f32) (V m c main_v22) (V m c main_v23)) (V m c main_v24)) :
    Pipeline.afterTail₀ cfgs dats 0 (V0 m) [hostOps1] c main_v44
      = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold Pipeline.afterTail₀
  have key := tail_of (Pipeline.withArrays spec0 c (V0 m c) fun w => (dats 0 c).arrAt w cfg0.N) _ (V m c main_v3)
    (m ((c.tc : Thread nD τ).loc main_arg1)) (m ((c.tc : Thread nD τ).loc main_arg4))
    ((Pipeline.withArrays_arr spec0 launch0.win.arr_inj c (V0 m c) (fun w => (dats 0 c).arrAt w cfg0.N) 3).trans hfin)
    (Pipeline.withArrays_of_ne spec0 c (V0 m c) _ main_v3 (by decide))
    ((Pipeline.withArrays_of_ne spec0 c (V0 m c) _ main_arg1 (by decide)).trans (V_main_arg1 m c))
    ((Pipeline.withArrays_of_ne spec0 c (V0 m c) _ main_arg4 (by decide)).trans (V_main_arg4 m c))
  refine key.trans ?_
  rw [entry_main_v22 m c, entry_main_v23 m c, entry_main_v24 m c, entry_main_v3 m c, shapeCast_fma]
  rfl

end Cert.KernelIdeal.HostBridge

end
-- ==== Proof.lean ====
/-
  The per-edge message kernel against its reference, over the extended reals.

  Both programs gather variable[:, 5] at the variable index of each of the 8,000,000 edges and constraint[:, 2] at its
  constraint index (a negative index wrapped once by the array's length), form the message
  variable_5[v] · edge_attr + constraint_2[c] per edge, add the messages into the 200,000 variable slots by the variable
  index, multiply each slot by variable[:, 0], add sqrt |variable[:, 3]|, and read the result at the 20,000 candidate
  indices. They differ in one place only: the reference forms the message by a product and a sum of [8000000] vectors,
  while the kernel views the three vectors as [62500, 128] arrays, forms a·b + c block by block in a pipelined region of
  eight points over blocks of 8192 rows (the last block overhanging the arrays by 3036 rows, its transfers cut at the
  array's end), and views the result as [8000000] again. A view of a vector as a matrix and back is the identity and
  both views commute with lane-wise operations, so the two messages are one vector and, every later operation being the
  same on both sides, so are the results. No law used needs finite operands: the precondition is never opened.

  The frames of the two kernel programs are the frame run of the region with the host lines around it
  (EdgeFmaBits, EdgeFmaIdeal: the body's triple, the proof data naming each staging buffer on the rows inside the array
  only, the body obligation on those rows); the reference's frame is its run with the result dropped. The idealized
  kernel's output array is a·b + c of the arrays the region finds (EdgeFmaValue: what each point writes back, and
  that the eight blocks cover the array); the host lines before and after the region and the reference's run are read
  as one function of the five argument arrays (HostBridge). The ideal pass rewrote nothing, so the idealization claim
  is trivial.
-/
import proofs.«149312_j78280073937529_2_alg».proof.Defs
import proofs.«149312_j78280073937529_2_alg».proof.Proof.Gen.Kernel
import proofs.«149312_j78280073937529_2_alg».proof.Proof.Gen.Kernel.Skeleton
import proofs.«149312_j78280073937529_2_alg».proof.Proof.Gen.Kernel.Launch
import proofs.«149312_j78280073937529_2_alg».proof.Proof.Gen.Kernel.Points
import proofs.«149312_j78280073937529_2_alg».proof.Proof.Gen.Kernel.Frame
import proofs.«149312_j78280073937529_2_alg».proof.Proof.Gen.KernelIdeal
import proofs.«149312_j78280073937529_2_alg».proof.Proof.Gen.KernelIdeal.Skeleton
import proofs.«149312_j78280073937529_2_alg».proof.Proof.Gen.KernelIdeal.Launch
import proofs.«149312_j78280073937529_2_alg».proof.Proof.Gen.KernelIdeal.Points
import proofs.«149312_j78280073937529_2_alg».proof.Proof.Gen.KernelIdeal.Frame
import proofs.«149312_j78280073937529_2_alg».proof.Proof.Gen.ReferenceIdeal
import proofs.«149312_j78280073937529_2_alg».proof.Proof.Gen.Pre_finite_inputs
import proofs.«149312_j78280073937529_2_alg».proof.Proof.Gen.ReferenceIdeal.Run
import proofs.«149312_j78280073937529_2_alg».proof.Proof.EdgeFmaBits
import proofs.«149312_j78280073937529_2_alg».proof.Proof.EdgeFmaIdeal
import proofs.«149312_j78280073937529_2_alg».proof.Proof.EdgeFmaValue
import proofs.«149312_j78280073937529_2_alg».proof.Proof.HostBridge
import Idealize.ShloMosaic.Adequacy
import Idealize.ShloMosaic.Init

noncomputable section

namespace Cert.Proof

open Idealize.ShloMosaic Idealize.SL.Sem

/-- The printed kernel runs to the end without a fault and leaves its five argument arrays as launched. -/
theorem frame_k : Cert.frame_Kernel (hKernel := Cert.Kernel.Gen.facts) (hPre_finite_inputs := Cert.Pre_finite_inputs.Gen.facts) :=
  fun m ρ _ => Cert.Kernel.EdgeFma.frame (F := Bits) m ρ

/-- So does the idealized kernel. -/
theorem frame_ki : Cert.frame_KernelIdeal (hKernelIdeal := Cert.KernelIdeal.Gen.facts) (hPre_finite_inputs := Cert.Pre_finite_inputs.Gen.facts) :=
  fun m ρ _ => Cert.KernelIdeal.EdgeFma.frame (F := Ideal) m ρ

/-- The reference is host operations only: its frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both idealized programs end with the result array at one function of the
    five argument arrays: the kernel by its frame run, the output array of the region (a·b + c of what the region
    finds) and the host lines around it; the reference by its run; the arguments' agreement rewritten. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.HostBridge.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun _ h c => ⟨(h c).1.trans (Cert.KernelIdeal.HostBridge.kernel_result m (Cert.KernelIdeal.EdgeFma.dats m) c
          (Cert.KernelIdeal.EdgeFma.final_out m c)), (h c).2⟩)
      (Cert.KernelIdeal.EdgeFma.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.HostBridge.reference_result m' c, (hagree c).1, (hagree c).2.1, (hagree c).2.2.1,
      (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
